-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x32x32 : Shape := ⟨4, ![4, 128, 32, 32]⟩
abbrev S32768x1x1x1 : Shape := ⟨4, ![32768, 1, 1, 1]⟩
abbrev S_ : Shape := ⟨0, ![]⟩

class Facts : Prop where
  bcast_S_S4x128x32x32 : S_.BroadcastsInDim S4x128x32x32 (![] : Fin 0 → Fin S4x128x32x32.rank)
  reducesTo_S4x128x32x32_S_d0_1_2_3 : S4x128x32x32.ReducesTo [0, 1, 2, 3] S_
  h_S_ : 0 < S_.numel
  bcast_S_S32768x1x1x1 : S_.BroadcastsInDim S32768x1x1x1 (![] : Fin 0 → Fin S32768x1x1x1.rank)
  reducesTo_S32768x1x1x1_S_d0_1_2_3 : S32768x1x1x1.ReducesTo [0, 1, 2, 3] S_

variable [Facts]

def fn {F : FTy → Type} [FloatOps F] (main_arg0 : FVec F S4x128x32x32 .f32) (main_arg1 : FVec F S32768x1x1x1 .f32) : IVec S_ 1 :=
  let main_v0 : FVec F S4x128x32x32 .f32 := Host.absf main_arg0
  let main_cst : FVec F S_ .f32 := constant S_ .f32 0x7F800000#32
  let main_v1 : FVec F S4x128x32x32 .f32 := broadcastInDim S4x128x32x32 ![] bcast_S_S4x128x32x32 main_cst
  let main_v2 : IVec S4x128x32x32 1 := cmpf .olt main_v0 main_v1
  let main_c : IVec S_ 1 := constantI S_ 1 1#1
  let main_v3 : IVec S_ 1 := (fun x v => Host.reduce IntOp.andi x v reducesTo_S4x128x32x32_S_d0_1_2_3 h_S_) main_v2 main_c
  let main_v4 : FVec F S32768x1x1x1 .f32 := Host.absf main_arg1
  let main_cst_0 : FVec F S_ .f32 := constant S_ .f32 0x7F800000#32
  let main_v5 : FVec F S32768x1x1x1 .f32 := broadcastInDim S32768x1x1x1 ![] bcast_S_S32768x1x1x1 main_cst_0
  let main_v6 : IVec S32768x1x1x1 1 := cmpf .olt main_v4 main_v5
  let main_c_1 : IVec S_ 1 := constantI S_ 1 1#1
  let main_v7 : IVec S_ 1 := (fun x v => Host.reduce IntOp.andi x v reducesTo_S32768x1x1x1_S_d0_1_2_3 h_S_) main_v6 main_c_1
  let main_v8 : IVec S_ 1 := andi main_v3 main_v7
  main_v8
-- ==== Kernel.lean ====
abbrev S4x128x32x32 : Shape := ⟨4, ![4, 128, 32, 32]⟩
abbrev S32768x1x1x1 : Shape := ⟨4, ![32768, 1, 1, 1]⟩
abbrev S4x128x1024 : Shape := ⟨3, ![4, 128, 1024]⟩
abbrev S256x128 : Shape := ⟨2, ![256, 128]⟩
abbrev S4x256x1024 : Shape := ⟨3, ![4, 256, 1024]⟩
abbrev S1x128x1024 : Shape := ⟨3, ![1, 128, 1024]⟩
abbrev S1x256x1024 : Shape := ⟨3, ![1, 256, 1024]⟩
abbrev S128x1024 : Shape := ⟨2, ![128, 1024]⟩
abbrev S256x1024 : Shape := ⟨2, ![256, 1024]⟩
abbrev S256x256 : Shape := ⟨2, ![256, 256]⟩
abbrev S4x256x32x32 : Shape := ⟨4, ![4, 256, 32, 32]⟩

abbrev nBuf : Space → Nat
  | .hbm => 6
  | .vmem => 5
  | .smem => 0
  | _ => 0

abbrev bufTy : (tb : Table) → Fin (tcTables nBuf tb) → BufTy
  | .hbm, ⟨0, _⟩ => ⟨S4x128x32x32, .f32⟩
  | .hbm, ⟨1, _⟩ => ⟨S32768x1x1x1, .f32⟩
  | .hbm, ⟨2, _⟩ => ⟨S4x128x1024, .f32⟩
  | .hbm, ⟨3, _⟩ => ⟨S256x128, .f32⟩
  | .hbm, ⟨4, _⟩ => ⟨S4x256x1024, .f32⟩
  | .hbm, ⟨5, _⟩ => ⟨S4x256x32x32, .f32⟩
  | .local _ .vmem, ⟨0, _⟩ => ⟨S1x128x1024, .f32⟩
  | .local _ .vmem, ⟨1, _⟩ => ⟨S1x128x1024, .f32⟩
  | .local _ .vmem, ⟨2, _⟩ => ⟨S256x128, .f32⟩
  | .local _ .vmem, ⟨3, _⟩ => ⟨S1x256x1024, .f32⟩
  | .local _ .vmem, ⟨4, _⟩ => ⟨S1x256x1024, .f32⟩
  | _, _ => ⟨S4x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x128x32x32_S4x128x1024 : S4x128x32x32.ShapeCasts S4x128x1024
  shapeCasts_S32768x1x1x1_S256x128 : S32768x1x1x1.ShapeCasts S256x128
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bitsLt_bf16_f32 : FTy.bits .bf16 < FTy.bits .f32
  concatenates_S128x1024_S128x1024_S256x1024_d0 : Shape.Concatenates [S128x1024, S128x1024] S256x1024 0
  concatenates_S256x128_S256x128_S256x256_d1 : Shape.Concatenates [S256x128, S256x128] S256x256 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  shapeCasts_S4x256x1024_S4x256x32x32 : S4x256x1024.ShapeCasts S4x256x32x32
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x128x1024.size a
  hwx0_0 : ∀ i : grid0.Coords, EltTy.bits .f32 = 32 ∨ (Rect.block (s := S4x128x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x256x1024.size a
  hwx0_2 : ∀ i : grid0.Coords, EltTy.bits .f32 = 32 ∨ (Rect.block (s := S4x256x1024) S1x256x1024.size (cc0_transform_2 i) (hinb0_2 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_v0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x32x32 : Shape := ⟨4, ![4, 128, 32, 32]⟩
abbrev S32768x1x1x1 : Shape := ⟨4, ![32768, 1, 1, 1]⟩
abbrev S256x128 : Shape := ⟨2, ![256, 128]⟩
abbrev S4x1x128x32x32 : Shape := ⟨5, ![4, 1, 128, 32, 32]⟩
abbrev S1x256x128x1x1 : Shape := ⟨5, ![1, 256, 128, 1, 1]⟩
abbrev S4x256x128x32x32 : Shape := ⟨5, ![4, 256, 128, 32, 32]⟩
abbrev S_ : Shape := ⟨0, ![]⟩
abbrev S4x256x32x32 : Shape := ⟨4, ![4, 256, 32, 32]⟩

abbrev nBuf : Space → Nat
  | .hbm => 13
  | .vmem => 0
  | .smem => 0
  | _ => 0

abbrev bufTy : (tb : Table) → Fin (tcTables nBuf tb) → BufTy
  | .hbm, ⟨0, _⟩ => ⟨S4x128x32x32, .f32⟩
  | .hbm, ⟨1, _⟩ => ⟨S32768x1x1x1, .f32⟩
  | .hbm, ⟨2, _⟩ => ⟨S256x128, .f32⟩
  | .hbm, ⟨3, _⟩ => ⟨S4x1x128x32x32, .f32⟩
  | .hbm, ⟨4, _⟩ => ⟨S1x256x128x1x1, .f32⟩
  | .hbm, ⟨5, _⟩ => ⟨S4x256x128x32x32, .f32⟩
  | .hbm, ⟨6, _⟩ => ⟨S4x256x128x32x32, .f32⟩
  | .hbm, ⟨7, _⟩ => ⟨S4x256x128x32x32, .f32⟩
  | .hbm, ⟨8, _⟩ => ⟨S_, .f32⟩
  | .hbm, ⟨9, _⟩ => ⟨S4x256x128x32x32, .f32⟩
  | .hbm, ⟨10, _⟩ => ⟨S4x256x128x32x32, .f32⟩
  | .hbm, ⟨11, _⟩ => ⟨S_, .f32⟩
  | .hbm, ⟨12, _⟩ => ⟨S4x256x32x32, .f32⟩
  | _, _ => ⟨S4x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S32768x1x1x1_S256x128 : S32768x1x1x1.ShapeCasts S256x128
  bcast_S4x128x32x32_S4x1x128x32x32_0_2_3_4 : S4x128x32x32.BroadcastsInDim S4x1x128x32x32 (![0, 2, 3, 4] : Fin 4 → Fin S4x1x128x32x32.rank)
  bcast_S256x128_S1x256x128x1x1_1_2 : S256x128.BroadcastsInDim S1x256x128x1x1 (![1, 2] : Fin 2 → Fin S1x256x128x1x1.rank)
  bcast_S4x1x128x32x32_S4x256x128x32x32_0_1_2_3_4 : S4x1x128x32x32.BroadcastsInDim S4x256x128x32x32 (![0, 1, 2, 3, 4] : Fin 5 → Fin S4x256x128x32x32.rank)
  bcast_S1x256x128x1x1_S4x256x128x32x32_0_1_2_3_4 : S1x256x128x1x1.BroadcastsInDim S4x256x128x32x32 (![0, 1, 2, 3, 4] : Fin 5 → Fin S4x256x128x32x32.rank)
  bcast_S_S4x256x128x32x32 : S_.BroadcastsInDim S4x256x128x32x32 (![] : Fin 0 → Fin S4x256x128x32x32.rank)
  reducesTo_S4x256x128x32x32_S4x256x32x32_d2 : S4x256x128x32x32.ReducesTo [2] S4x256x32x32
  h_S_ : 0 < S_.numel

variable [Facts₀]

class Facts : Prop extends Facts₀ where

variable [Facts]
-- ==== Proof.SignSplit.lean ====
/-
  The one scalar law that joins the two programs, on the extended reals.

  For extended reals `a`, `b` the positive part of a product splits by the signs of the factors:
  `max (a·b) 0 = max a 0 · max b 0 + min a 0 · min b 0`. With both factors at or above zero the second product
  vanishes and the first is `a·b`, itself at or above zero; with both at or below zero the first product vanishes and
  the second is `a·b`, again at or above zero; with opposite signs both products have a zero factor and `a·b` is at
  or below zero. Nothing here asks the factors to be finite: a product with a zero factor is zero on the extended
  reals, and the sign of a product of two extended reals is decided by the signs of the factors.
-/
import Mathlib.Data.EReal.Operations

namespace Cert.SignSplit

/-- The positive part of a product of two extended reals is the product of the positive parts plus the product of
    the negative parts. -/
theorem posPart_mul (a b : EReal) : max (a * b) 0 = max a 0 * max b 0 + min a 0 * min b 0 := by
  rcases le_total 0 a with ha | ha <;> rcases le_total 0 b with hb | hb
  · rw [max_eq_left ha, max_eq_left hb, min_eq_right ha, min_eq_right hb, mul_zero, add_zero,
      max_eq_left (EReal.mul_nonneg_iff.mpr (.inl ⟨ha, hb⟩))]
  · rw [max_eq_left ha, max_eq_right hb, min_eq_right ha, min_eq_left hb, mul_zero, zero_mul, add_zero,
      max_eq_right (EReal.mul_nonpos_iff.mpr (.inl ⟨ha, hb⟩))]
  · rw [max_eq_right ha, max_eq_left hb, min_eq_left ha, min_eq_right hb, zero_mul, mul_zero, add_zero,
      max_eq_right (EReal.mul_nonpos_iff.mpr (.inr ⟨ha, hb⟩))]
  · rw [max_eq_right ha, max_eq_right hb, min_eq_left ha, min_eq_left hb, mul_zero, zero_add,
      max_eq_left (EReal.mul_nonneg_iff.mpr (.inr ⟨ha, hb⟩))]

end Cert.SignSplit
-- ==== Proof.Payload.lean ====
/-
  What the kernel body stores, read at one index.

  At one grid point the body holds a block `x` of shape [1, 128, 1024] (one batch entry: channels by pixels) and
  the weight matrix `w` of shape [256, 128] (output channels by input channels). It forms the positive parts and the
  negative parts of both, stacks the two parts of `x` along the channel axis into a [256, 1024] matrix and the two
  parts of `w` along the input-channel axis into a [256, 256] matrix, and contracts the doubled axis into a zero
  accumulator. At the extended reals the changes of float format are the identity and the contraction is the plain sum
  over the doubled axis, so the stored value at output channel `o` and pixel `p` is

    ∑ q < 256, wcat(o, q) · xcat(q, p)
      = ∑ k < 128, (max w(o,k) 0 · max x(k,p) 0 + min w(o,k) 0 · min x(k,p) 0)
      = ∑ k < 128, max (x(k,p) · w(o,k)) 0,

  the first step reading each stacked matrix in its lower and its upper half, the second the sign law for the positive
  part of a product.
-/
import proofs.«163120_j57827439673971_2_alg».proof.Proof.Gen.KernelIdeal.Skeleton
import proofs.«163120_j57827439673971_2_alg».proof.Proof.SignSplit
import Idealize.ShloMosaic.Lib.ValueIdx
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

/-! ## The pointwise pieces -/

/-- The positive part of a vector, narrowed: at the extended reals, `max · 0` element by element. -/
theorem posPart_apply {S : Shape} (v : FVec Ideal S .f32) (h : FTy.bits .bf16 < FTy.bits .f32) (i : S.Idx) :
    truncf .bf16 (maximumf v (broadcast S (Scalar.ofBits .f32 0x00000000#32))) h i = max (v i) 0 := by
  show max (v i) (Ideal.ofBits .f32 0x00000000#32) = _
  rw [Ideal.ofBits_zero_f32]

/-- The negative part of a vector, narrowed: `min · 0` element by element. -/
theorem negPart_apply {S : Shape} (v : FVec Ideal S .f32) (h : FTy.bits .bf16 < FTy.bits .f32) (i : S.Idx) :
    truncf .bf16 (minimumf v (broadcast S (Scalar.ofBits .f32 0x00000000#32))) h i = min (v i) 0 := by
  show min (v i) (Ideal.ofBits .f32 0x00000000#32) = _
  rw [Ideal.ofBits_zero_f32]

/-! ## The layout operations at an index -/

/-- The [1, 128, 1024] block viewed as [128, 1024]: entry (k, p) is the block's (0, k, p). -/
theorem dropUnit_apply (x : Vec Ideal S1x128x1024 .f32) (h : S1x128x1024.ShapeCasts S128x1024) (k : Fin 128) (p : Fin 1024) :
    shapeCast S128x1024 x h (ix2 k p) = x (ix3 (0 : Fin 1) k p) :=
  shapeCast_apply x h (ix2 k p) (ix3 (0 : Fin 1) k p) (by
    rw [Shape.rowMajor_val_three, Shape.rowMajor_val_two]
    show (0 * 128 + k.val) * 1024 + p.val = k.val * 1024 + p.val
    omega)

/-- The [256, 1024] result viewed as a [1, 256, 1024] block: entry (0, o, p) is the result's (o, p). -/
theorem addUnit_apply (v : FVec Ideal S256x1024 .f32) (h : S256x1024.ShapeCasts S1x256x1024) (o : Fin 256) (p : Fin 1024) :
    shapeCast S1x256x1024 v h (ix3 (0 : Fin 1) o p) = v (ix2 o p) :=
  shapeCast_apply v h (ix3 (0 : Fin 1) o p) (ix2 o p) (by
    rw [Shape.rowMajor_val_three, Shape.rowMajor_val_two]
    show o.val * 1024 + p.val = (0 * 256 + o.val) * 1024 + p.val
    omega)

/-- Two [128, 1024] pieces stacked along the rows, read in the lower half: the first piece. -/
theorem stackRows_lo (P N : FVec Ideal S128x1024 .bf16) (hc : Shape.Concatenates [S128x1024, S128x1024] S256x1024 0)
    (q : Fin 256) (k : Fin 128) (p : Fin 1024) (hq : q.val = k.val) :
    concatenate S256x1024 0 [⟨S128x1024, P⟩, ⟨S128x1024, N⟩] hc (ix2 q p) = P (ix2 k p) :=
  concatenate_pair_apply_left (0 : Fin S256x1024.rank) P N hc (ix2 q p) rfl (ix2 k p)
    (fun b => by match b with | ⟨0, _⟩ => exact hq.symm | ⟨1, _⟩ => rfl)

/-- … and in the upper half: the second piece, 128 rows down. -/
theorem stackRows_hi (P N : FVec Ideal S128x1024 .bf16) (hc : Shape.Concatenates [S128x1024, S128x1024] S256x1024 0)
    (q : Fin 256) (k : Fin 128) (p : Fin 1024) (hq : q.val = 128 + k.val) :
    concatenate S256x1024 0 [⟨S128x1024, P⟩, ⟨S128x1024, N⟩] hc (ix2 q p) = N (ix2 k p) :=
  concatenate_pair_apply_right (0 : Fin S256x1024.rank) P N hc (ix2 q p) rfl rfl (ix2 k p)
    (fun b hb => by match b, hb with | ⟨0, _⟩, hb => exact absurd rfl hb | ⟨1, _⟩, _ => rfl)
    (by show k.val + 128 = q.val; omega)

/-- Two [256, 128] pieces stacked along the columns, read in the lower half: the first piece. -/
theorem stackCols_lo (P N : FVec Ideal S256x128 .bf16) (hc : Shape.Concatenates [S256x128, S256x128] S256x256 1)
    (o : Fin 256) (q : Fin 256) (k : Fin 128) (hq : q.val = k.val) :
    concatenate S256x256 1 [⟨S256x128, P⟩, ⟨S256x128, N⟩] hc (ix2 o q) = P (ix2 o k) :=
  concatenate_pair_apply_left (1 : Fin S256x256.rank) P N hc (ix2 o q) rfl (ix2 o k)
    (fun b => by match b with | ⟨0, _⟩ => rfl | ⟨1, _⟩ => exact hq.symm)

/-- … and in the upper half: the second piece, 128 columns along. -/
theorem stackCols_hi (P N : FVec Ideal S256x128 .bf16) (hc : Shape.Concatenates [S256x128, S256x128] S256x256 1)
    (o : Fin 256) (q : Fin 256) (k : Fin 128) (hq : q.val = 128 + k.val) :
    concatenate S256x256 1 [⟨S256x128, P⟩, ⟨S256x128, N⟩] hc (ix2 o q) = N (ix2 o k) :=
  concatenate_pair_apply_right (1 : Fin S256x256.rank) P N hc (ix2 o q) rfl rfl (ix2 o k)
    (fun b hb => by match b, hb with | ⟨0, _⟩, _ => rfl | ⟨1, _⟩, hb => exact absurd rfl hb)
    (by show k.val + 128 = q.val; omega)

/-! ## The contraction at an index -/

local notation "D" => dot_S256x256_S256x1024_S256x1024_1_0_0_1_n_n

/-- The left operand is read at the result's row and the contraction position … -/
theorem lhs_row (i : S256x1024.Idx) (q : (D).contr.Idx) : ((D).lhsIdx i q 0).val = (i 0).val := by
  unfold DotDims.lhsIdx
  rw [dif_neg (show ¬(0 : Fin S256x256.rank) ∈ (D).lhsBatch by decide),
    dif_pos (show (0 : Fin S256x256.rank) ∈ (D).lhsNonContracting by decide)]
  rfl
theorem lhs_col (i : S256x1024.Idx) (q : (D).contr.Idx) : ((D).lhsIdx i q 1).val = (q ⟨0, by decide⟩).val :=
  (D).lhsIdx_val_of_single rfl i q
/-- … the right operand at the contraction position and the result's column. -/
theorem rhs_row (i : S256x1024.Idx) (q : (D).contr.Idx) : ((D).rhsIdx i q 0).val = (q ⟨0, by decide⟩).val :=
  (D).rhsIdx_val_of_single rfl i q
theorem rhs_col (i : S256x1024.Idx) (q : (D).contr.Idx) : ((D).rhsIdx i q 1).val = (i 1).val := by
  unfold DotDims.rhsIdx
  rw [dif_neg (show ¬(1 : Fin S256x1024.rank) ∈ (D).rhsBatch by decide),
    dif_pos (show (1 : Fin S256x1024.rank) ∈ (D).rhsNonContracting by decide)]
  rfl

/-- The matrix product into a zero accumulator, at (o, p): the sum over the 256 contraction positions of the left
    operand's row `o` times the right operand's column `p`. -/
theorem contraction_apply (A : FVec Ideal S256x256 .bf16) (B : FVec Ideal S256x1024 .bf16) (o : Fin 256) (p : Fin 1024) :
    matmul (D) none A B (constant S256x1024 .f32 0x00000000#32) (ix2 o p) = ∑ q : Fin 256, A (ix2 o q) * B (ix2 q p) := by
  refine (Ideal.matmul_constant_zero_apply (D) none A B (ix2 o p)).trans ?_
  rw [← Equiv.sum_comp (contrEquiv1 (D) 256 rfl rfl).symm]
  refine Finset.sum_congr rfl fun q _ => ?_
  have hq := contrEquiv1_symm_val (D) 256 rfl rfl q
  have el : (D).lhsIdx (ix2 o p) ((contrEquiv1 (D) 256 rfl rfl).symm q) = ix2 o q := funext fun a => Fin.ext (by
    match a with
    | ⟨0, _⟩ => exact lhs_row _ _
    | ⟨1, _⟩ => exact (lhs_col _ _).trans hq)
  have er : (D).rhsIdx (ix2 o p) ((contrEquiv1 (D) 256 rfl rfl).symm q) = ix2 q p := funext fun a => Fin.ext (by
    match a with
    | ⟨0, _⟩ => exact (rhs_row _ _).trans hq
    | ⟨1, _⟩ => exact rhs_col _ _)
  rw [el, er]

/-- A contraction of two stacked operands over the doubled axis is the sum, over the single axis, of the products of
    the lower pieces plus the products of the upper pieces. -/
theorem stacked_contraction (Wp Wn : FVec Ideal S256x128 .bf16) (Xp Xn : FVec Ideal S128x1024 .bf16)
    (hw : Shape.Concatenates [S256x128, S256x128] S256x256 1) (hx : Shape.Concatenates [S128x1024, S128x1024] S256x1024 0)
    (o : Fin 256) (p : Fin 1024) :
    ∑ q : Fin 256, concatenate S256x256 1 [⟨S256x128, Wp⟩, ⟨S256x128, Wn⟩] hw (ix2 o q)
        * concatenate S256x1024 0 [⟨S128x1024, Xp⟩, ⟨S128x1024, Xn⟩] hx (ix2 q p)
      = ∑ k : Fin 128, (Wp (ix2 o k) * Xp (ix2 k p) + Wn (ix2 o k) * Xn (ix2 k p)) := by
  show ∑ q : Fin (128 + 128), _ = _
  rw [Fin.sum_univ_add, ← Finset.sum_add_distrib]
  refine Finset.sum_congr rfl fun k _ => ?_
  rw [stackCols_lo Wp Wn hw o (Fin.castAdd 128 k) k rfl, stackRows_lo Xp Xn hx (Fin.castAdd 128 k) k p rfl,
    stackCols_hi Wp Wn hw o (Fin.natAdd 128 k) k rfl, stackRows_hi Xp Xn hx (Fin.natAdd 128 k) k p rfl]

/-! ## The stored value -/

/-- The body's stored block at (0, o, p), from the loaded block `x` and the loaded weights `w`: the sum over the
    128 input channels of the positive part of `x(0, k, p) · w(o, k)`. -/
theorem payload_apply (x : Vec Ideal S1x128x1024 .f32) (w : Vec Ideal S256x128 .f32) (o : Fin 256) (p : Fin 1024) :
    k0_pay1 (F := Ideal) x w (ix3 (0 : Fin 1) o p) = ∑ k : Fin 128, max (x (ix3 (0 : Fin 1) k p) * w (ix2 o k)) 0 := by
  unfold k0_pay1
  refine (addUnit_apply _ _ o p).trans ?_
  refine (contraction_apply _ _ o p).trans ?_
  refine (stacked_contraction _ _ _ _ _ _ o p).trans ?_
  refine Finset.sum_congr rfl fun k _ => ?_
  rw [posPart_apply, posPart_apply, negPart_apply, negPart_apply, shapeCast_self, dropUnit_apply,
    EReal.mul_comm (x _) (w _), Cert.SignSplit.posPart_mul]

end Cert.KernelIdeal.BodyValue

end
-- ==== Proof.Spec.lean ====
/-
  The function both programs compute, and the same function as the kernel's program lays it out.

  The result has one entry per batch entry `b`, output channel `o` and pixel (`h`, `w`):

    out(b, o, h, w) = ∑ k < 128, max (x(b, k, h, w) · wt(o·128 + k, 0, 0, 0)) 0

  where `x` is the [4, 128, 32, 32] input and `wt` the [32768, 1, 1, 1] weight column, whose entry `o·128 + k` is the
  weight of input channel `k` for output channel `o` (`conv`).

  The kernel's program first flattens the pixels, `x` to [4, 128, 1024] and `wt` to [256, 128], computes

    region(b, o, p) = ∑ k < 128, max (xr(b, k, p) · wr(o, k)) 0

  on the flattened arrays (`region`), and unflattens the [4, 256, 1024] result to [4, 256, 32, 32]. A reshape keeps the
  row-major position, so pixel (h, w) is flat position `h·32 + w` and weight (o, k) is column entry `o·128 + k`: the
  three reshapes cancel entry by entry (`reshape_region`).
-/
import Idealize.ShloMosaic.Lib.ValueIdx
import Idealize.ShloMosaic.Lib.Pipeline.Value

noncomputable section

open scoped BigOperators

namespace Cert.Spec

open Idealize.ShloMosaic Idealize.ShloMosaic.ValueIdx

/-- One entry of the result: the sum over the input channels of the positive part of input times weight. -/
def convAt (x : (⟨4, ![4, 128, 32, 32]⟩ : Shape).Idx → EReal) (wt : (⟨4, ![32768, 1, 1, 1]⟩ : Shape).Idx → EReal)
    (b : Fin 4) (o : Fin 256) (h : Fin 32) (w : Fin 32) : EReal :=
  ∑ k : Fin 128, max (x (ix4 b k h w)
    * wt (ix4 (⟨o.val * 128 + k.val, by have := o.isLt; have := k.isLt; omega⟩ : Fin 32768) (0 : Fin 1) (0 : Fin 1) (0 : Fin 1))) 0

/-- The whole [4, 256, 32, 32] result. -/
def conv (x : (⟨4, ![4, 128, 32, 32]⟩ : Shape).Idx → EReal) (wt : (⟨4, ![32768, 1, 1, 1]⟩ : Shape).Idx → EReal) :
    (⟨4, ![4, 256, 32, 32]⟩ : Shape).Idx → EReal :=
  fun i => convAt x wt ⟨(i 0).val, (i 0).isLt⟩ ⟨(i 1).val, (i 1).isLt⟩ ⟨(i 2).val, (i 2).isLt⟩ ⟨(i 3).val, (i 3).isLt⟩

/-- One entry of the same result on flattened pixels, from a [4, 128, 1024] input and a [256, 128] weight matrix. -/
def regionAt (xr : (⟨3, ![4, 128, 1024]⟩ : Shape).Idx → EReal) (wr : (⟨2, ![256, 128]⟩ : Shape).Idx → EReal)
    (b : Fin 4) (o : Fin 256) (p : Fin 1024) : EReal :=
  ∑ k : Fin 128, max (xr (ix3 b k p) * wr (ix2 o k)) 0

/-- The whole [4, 256, 1024] array. -/
def region (xr : (⟨3, ![4, 128, 1024]⟩ : Shape).Idx → EReal) (wr : (⟨2, ![256, 128]⟩ : Shape).Idx → EReal) :
    (⟨3, ![4, 256, 1024]⟩ : Shape).Idx → EReal :=
  fun i => regionAt xr wr ⟨(i 0).val, (i 0).isLt⟩ ⟨(i 1).val, (i 1).isLt⟩ ⟨(i 2).val, (i 2).isLt⟩

/-- Flatten the pixels of both inputs, compute on the flattened arrays, unflatten the result: entry by entry this is
    `conv`, each reshape keeping the row-major position. -/
theorem reshape_region (x : (⟨4, ![4, 128, 32, 32]⟩ : Shape).Idx → EReal) (wt : (⟨4, ![32768, 1, 1, 1]⟩ : Shape).Idx → EReal)
    (hx : (⟨4, ![4, 128, 32, 32]⟩ : Shape).ShapeCasts ⟨3, ![4, 128, 1024]⟩)
    (hw : (⟨4, ![32768, 1, 1, 1]⟩ : Shape).ShapeCasts ⟨2, ![256, 128]⟩)
    (ho : (⟨3, ![4, 256, 1024]⟩ : Shape).ShapeCasts ⟨4, ![4, 256, 32, 32]⟩) :
    shapeCast ⟨4, ![4, 256, 32, 32]⟩ (region (shapeCast ⟨3, ![4, 128, 1024]⟩ x hx) (shapeCast ⟨2, ![256, 128]⟩ wt hw)) ho
      = conv x wt := by
  funext i
  obtain ⟨b, o, h, w, rfl⟩ : ∃ (b : Fin 4) (o : Fin 256) (h : Fin 32) (w : Fin 32), i = ix4 b o h w :=
    ⟨i 0, i 1, i 2, i 3, eq_ix4 i⟩
  have hb := b.isLt
  have ho' := o.isLt
  have hh := h.isLt
  have hw' := w.isLt
  have hp : h.val * 32 + w.val < 1024 := by omega
  refine (shapeCast_apply _ ho (ix4 b o h w) (ix3 b o (⟨h.val * 32 + w.val, hp⟩ : Fin 1024)) (by
    rw [Shape.rowMajor_val_three, Shape.rowMajor_val_four]
    show (b.val * 256 + o.val) * 1024 + (h.val * 32 + w.val) = ((b.val * 256 + o.val) * 32 + h.val) * 32 + w.val
    omega)).trans ?_
  show regionAt _ _ b o ⟨h.val * 32 + w.val, hp⟩ = convAt x wt b o h w
  unfold regionAt convAt
  refine Finset.sum_congr rfl fun k _ => ?_
  have hk := k.isLt
  rw [shapeCast_apply x hx (ix3 b k (⟨h.val * 32 + w.val, hp⟩ : Fin 1024)) (ix4 b k h w) (by
      rw [Shape.rowMajor_val_three, Shape.rowMajor_val_four]
      show ((b.val * 128 + k.val) * 32 + h.val) * 32 + w.val = (b.val * 128 + k.val) * 1024 + (h.val * 32 + w.val)
      omega),
    shapeCast_apply wt hw (ix2 o k)
      (ix4 (⟨o.val * 128 + k.val, by omega⟩ : Fin 32768) (0 : Fin 1) (0 : Fin 1) (0 : Fin 1)) (by
      rw [Shape.rowMajor_val_two, Shape.rowMajor_val_four]
      show (((o.val * 128 + k.val) * 1 + 0) * 1 + 0) * 1 + 0 = o.val * 128 + k.val
      omega)]

end Cert.Spec

end
-- ==== Proof.RegionValue.lean ====
/-
  What the kernel's program leaves in its result, as one function of its two arguments.

  The program flattens the pixels of `x` and reshapes the weight column to a matrix (two host reshapes), runs the
  kernel over a grid of four points, one per batch entry, and unflattens the result (one host reshape).

  At point `t` the input window stages block `t` of the flattened `x` — batch entry `t`, all channels, all pixels —,
  the weight window stages the whole weight matrix, and the output window writes back block `t` of the [4, 256, 1024]
  array. The stored block at (0, o, p) is the sum over the input channels of the positive part of
  `x-block(0, k, p) · weights(o, k)` (the body's stored value, read at an index), and block entry (0, k, p) of window
  `t` is array entry (t, k, p): so point `t` writes block `t` of `region` of the two flattened arrays. The four
  blocks tile the array — entry (b, o, p) lies in the block of point `b` —, so after the run the array IS `region`,
  and the last reshape of it, by the index arithmetic of the specification, is `conv` of the two arguments.
-/
import proofs.«163120_j57827439673971_2_alg».proof.Proof.Gen.KernelIdeal.Frame
import proofs.«163120_j57827439673971_2_alg».proof.Proof.Payload
import proofs.«163120_j57827439673971_2_alg».proof.Proof.Spec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Spec (region regionAt conv)

variable (m : (ℓ : Loc nD τ sig) → Buf (Elt Ideal) ℓ) (ρ : Dev nD → PrngReg)

/-! ## The windows' blocks on the grid -/

/-- Where each window's block sits at point `t`: the input and the output window at batch entry `t`, the weight
    window always at the origin (decided over the four points). -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The batch entry a grid point works on. -/
def batchOf (t : Fin cfg0.N) : Fin 4 := ⟨t.val, by have h : t.val < grid0.N := t.isLt; rw [N_0] at h; exact h⟩

/-- Entry (0, k, p) of the input block at point `t` is entry (t, k, p) of the flattened input. -/
theorem xblock_apply (c : Dev nD) (t : Fin cfg0.N) (k : Fin 128) (p : Fin 1024) :
    iblk m c 0 t (ix3 (0 : Fin 1) k p) = V m c main_v0 (ix3 (batchOf t) k p) := by
  obtain ⟨e0, e1, e2, -⟩ := block_index t
  show V m c main_v0 (((cfg0.win 0).blk t).view.emb (ix3 (0 : Fin 1) k p)) = _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 128 + 1 * k.val = k.val; omega
  | ⟨2, _⟩ => show win0_0.index t (2 : Fin 3) * 1024 + 1 * p.val = p.val; omega

/-- The weight block at every point is the whole weight matrix. -/
theorem wblock_apply (c : Dev nD) (t : Fin cfg0.N) (o : Fin 256) (k : Fin 128) :
    iblk m c 1 t (ix2 o k) = V m c main_v1 (ix2 o k) := by
  obtain ⟨-, -, -, e3, e4, -⟩ := block_index t
  show V m c main_v1 (((cfg0.win 1).blk t).view.emb (ix2 o k)) = _
  refine congrArg (V m c main_v1) (funext fun a => Fin.ext ?_)
  match a with
  | ⟨0, _⟩ => show win0_1.index t (0 : Fin 2) * 256 + 1 * o.val = o.val; omega
  | ⟨1, _⟩ => show win0_1.index t (1 : Fin 2) * 128 + 1 * k.val = k.val; omega

/-- Entry (0, o, p) of the output block at point `t` is entry (t, o, p) of the output array. -/
theorem oblock_emb (t : Fin cfg0.N) (o : Fin 256) (p : Fin 1024) :
    ((cfg0.win 2).blk t).view.emb (ix3 (0 : Fin 1) o p) = ix3 (batchOf t) o p := by
  obtain ⟨-, -, -, -, -, e5, e6, e7⟩ := block_index t
  funext a
  apply Fin.ext
  match a with
  | ⟨0, _⟩ => show win0_2.index t (0 : Fin 3) * 1 + 1 * 0 = t.val; omega
  | ⟨1, _⟩ => show win0_2.index t (1 : Fin 3) * 256 + 1 * o.val = o.val; omega
  | ⟨2, _⟩ => show win0_2.index t (2 : Fin 3) * 1024 + 1 * p.val = p.val; omega

/-! ## What each point writes back, and the array after the run -/

theorem origin3 : (![0, 0, 0] : Fin 3 → Nat) = fun _ => 0 := funext fun a => by fin_cases a <;> rfl
theorem origin2 : (![0, 0] : Fin 2 → Nat) = fun _ => 0 := funext fun a => by fin_cases a <;> rfl

/-- Point `t` writes back block `t` of `region` of the two arrays the region finds. -/
theorem flushed_eq (c : Dev nD) (t : Fin cfg0.N) :
    (dats m 0 c).flushed 2 t = ((cfg0.win 2).blk t).view.read (Elt Ideal) (region (V m c main_v0) (V m c main_v1)) := by
  show (cfg0.win 2).cut (grid0.coords t) ((dats m 0 c).after 2 t) = _
  rw [after0_2]
  unfold out0_2
  rw [View.canon_unit_zero origin3]
  simp only [View.ld_unit_zero (S := S1x128x1024) origin3, View.ld_unit_zero (S := S256x128) origin2]
  funext j
  obtain ⟨z, o, p, rfl⟩ : ∃ (z : Fin 1) (o : Fin 256) (p : Fin 1024), j = ix3 z o p := ⟨j 0, j 1, j 2, eq_ix3 j⟩
  obtain rfl : z = 0 := Subsingleton.elim _ _
  show k0_pay1 (iblk m c 0 t) (iblk m c 1 t) (ix3 (0 : Fin 1) o p)
    = region (V m c main_v0) (V m c main_v1) (((cfg0.win 2).blk t).view.emb (ix3 (0 : Fin 1) o p))
  rw [oblock_emb]
  refine (BodyValue.payload_apply (iblk m c 0 t) (iblk m c 1 t) o p).trans ?_
  show _ = regionAt (V m c main_v0) (V m c main_v1) (batchOf t) o p
  unfold regionAt
  refine Finset.sum_congr rfl fun k _ => ?_
  rw [xblock_apply, wblock_apply]

/-- An index of the output array is in point `t`'s block iff each coordinate is in the block's range on its axis. -/
theorem mem_block (t : Fin cfg0.N) (i : S4x256x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v2).slice (win0_2.rect t)).set ↔ _
  rw [View.set_slice_whole, Rect.mem_set_unit]
  exact Iff.rfl

/-- The four blocks tile the array: entry (b, o, p) is in the block of point `b`. -/
theorem cover (i : S4x256x1024.Idx) : ∃ t : Fin cfg0.N, (cfg0.win 2).flush t = true ∧ i ∈ ((cfg0.win 2).blk t).view.set := by
  have h0 : (i 0).val < 4 := (i 0).isLt
  have h1 : (i 1).val < 256 := (i 1).isLt
  have h2 : (i 2).val < 1024 := (i 2).isLt
  obtain ⟨t, ht⟩ : ∃ t : Fin cfg0.N, t.val = (i 0).val :=
    ⟨⟨(i 0).val, by show (i 0).val < grid0.N; rw [N_0]; exact h0⟩, rfl⟩
  obtain ⟨-, -, -, -, -, e5, e6, e7⟩ := block_index t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- After the run the output array is `region` of the two arrays the region found. -/
theorem array_eq (c : Dev nD) : (dats m 0 c).arrAt 2 cfg0.N = region (V m c main_v0) (V m c main_v1) :=
  (dats m 0 c).arrAt_eq_of_cover 2 (region (V m c main_v0) (V m c main_v1)) (fun t _ => flushed_eq m c t) cover

/-! ## The host reshapes around the region -/

/-- The region finds the input with its pixels flattened … -/
theorem V_main_v0 (c : Dev nD) :
    (V m c main_v0 : S4x128x1024.Idx → EReal)
      = shapeCast S4x128x1024 (m ((c : Thread nD τ).loc main_arg0)) shapeCasts_S4x128x32x32_S4x128x1024 := by
  show StableHlo.after hostOps0 (fun b => m (c, b)) (Proc.devRef .tc main_v0) = _
  after_results
  rfl

/-- … and the weight column as a [256, 128] matrix. -/
theorem V_main_v1 (c : Dev nD) :
    (V m c main_v1 : S256x128.Idx → EReal)
      = shapeCast S256x128 (m ((c : Thread nD τ).loc main_arg1)) shapeCasts_S32768x1x1x1_S256x128 := by
  show StableHlo.after hostOps0 (fun b => m (c, b)) (Proc.devRef .tc main_v1) = _
  after_results
  rfl

/-- The program's result: the reshape after the region, of the region's array, is `conv` of the two arguments. -/
theorem result_eq (c : Dev nD) :
    Pipeline.afterTail₀ cfgs (dats m) 0 (V0 m) [hostOps1] c main_v3
      = conv (m ((c : Thread nD τ).loc main_arg0)) (m ((c : Thread nD τ).loc main_arg1)) := by
  unfold Pipeline.afterTail₀
  show StableHlo.after hostOps1 _ (Proc.devRef .tc main_v3) = _
  after_results
  rw [Pipeline.withArrays_arr spec0 launch0.win.arr_inj c _ _ 2]
  show shapeCast S4x256x32x32 ((dats m 0 c).arrAt 2 cfg0.N) shapeCasts_S4x256x1024_S4x256x32x32 = _
  rw [array_eq, V_main_v0, V_main_v1]
  exact Cert.Spec.reshape_region _ _ _ _ _

/-! ## The run, read -/

/-- Every weakly fair execution of the kernel's program terminates with its result at `conv` of the two arguments
    and the arguments unchanged: the generated frame run, its post read at the result and at the arguments. -/
theorem run : θ_run defs (onTc (τ := τ) (main (F := Ideal))) ⟨m, fun _ => 0, ρ⟩ fun r => ∀ c : Dev nD,
      r.2.mem ((c.tc : Thread nD τ).loc main_v3) = conv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RegionValue

end
-- ==== Proof.RefValue.lean ====
/-
  The reference's result is `conv` of its two arguments.

  The reference reshapes the weight column to [256, 128], places `x` and the weights on a common [4, 256, 128, 32, 32]
  index set (batch, output channel, input channel, row, column) by broadcasts, multiplies them there, takes the positive
  part against a zero splat and sums over the input-channel axis from a zero initial value. Read at one result index
  (b, o, h, w), through the generated one-operation-at-a-time lemmas: the summand at input channel `k` is the product
  of `x(b, k, h, w)` — the broadcasts only insert and repeat the output-channel axis — and `wt(o·128 + k, 0, 0, 0)` —
  the reshape keeps the row-major position, the broadcasts only repeat over batch and pixels — capped below at zero, and
  the zero initial value adds nothing.
-/
import proofs.«163120_j57827439673971_2_alg».proof.Proof.Gen.ReferenceIdeal.Read
import proofs.«163120_j57827439673971_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- Through the two broadcasts of `x`, summand `k` of result entry (b, o, h, w) reads `x` at (b, k, h, w). -/
theorem x_index (b : Fin 4) (o : Fin 256) (h : Fin 32) (w : Fin 32) (k : Fin 128) :
    idx_main_v1 (idx_main_v3 (idx_main_v7 (ix4 b o h w) k)) = ix4 b k h w :=
  funext fun a => Fin.ext (by
    match a with
    | ⟨0, _⟩ => rfl
    | ⟨1, _⟩ => rfl
    | ⟨2, _⟩ => rfl
    | ⟨3, _⟩ => rfl)

/-- Through the reshape and the two broadcasts of the weights, it reads the weight column at `o·128 + k`. -/
theorem w_index (b : Fin 4) (o : Fin 256) (h : Fin 32) (w : Fin 32) (k : Fin 128) :
    idx_main_v0 (idx_main_v2 (idx_main_v4 (idx_main_v7 (ix4 b o h w) k)))
      = ix4 (⟨o.val * 128 + k.val, by have := o.isLt; have := k.isLt; omega⟩ : Fin 32768) (0 : Fin 1) (0 : Fin 1) (0 : Fin 1) :=
  funext fun a => Fin.ext (by
    match a with
    | ⟨0, _⟩ => show (o.val * 128 + k.val) / 1 = o.val * 128 + k.val; omega
    | ⟨1, _⟩ => rfl
    | ⟨2, _⟩ => rfl
    | ⟨3, _⟩ => rfl)

/-- The reference's last stage is `conv` of the two arguments. -/
theorem stage_eq_conv (x : (⟨S4x128x32x32, .f32⟩ : BufTy).Contents (Elt Ideal)) (wt : (⟨S32768x1x1x1, .f32⟩ : BufTy).Contents (Elt Ideal)) :
    val_main_v7 (F := Ideal) x wt = Cert.Spec.conv x wt := by
  funext i
  obtain ⟨b, o, h, w, rfl⟩ : ∃ (b : Fin 4) (o : Fin 256) (h : Fin 32) (w : Fin 32), i = ix4 b o h w :=
    ⟨i 0, i 1, i 2, i 3, eq_ix4 i⟩
  rw [val_main_v7_apply, val_main_cst_apply]
  show Ideal.ofBits .f32 0x00000000#32 + _ = Cert.Spec.convAt x wt b o h w
  rw [Ideal.ofBits_zero_f32, zero_add]
  unfold Cert.Spec.convAt
  refine Finset.sum_congr rfl fun k _ => ?_
  rw [val_main_v6_apply, val_main_v5_apply, val_main_v3_apply, val_main_v1_apply, val_main_v4_apply, val_main_v2_apply,
    val_main_v0_apply, val_main_call0_v0_apply, val_main_call0_cst_apply, x_index, w_index]
  show max (_ * _) (Ideal.ofBits .f32 0x00000000#32) = _
  rw [Ideal.ofBits_zero_f32]

end Cert.ReferenceIdeal.RefValue

end
-- ==== Proof.lean ====
/-
  A pointwise convolution with the rectifier applied BEFORE the channel sum, against its reference.

  Both programs compute, for batch entry b, output channel o and pixel (h, w),

    out(b, o, h, w) = ∑ k < 128, max (x(b, k, h, w) · wt(o·128 + k)) 0.

  The reference does so literally: it multiplies on a [4, 256, 128, 32, 32] index set, takes positive parts, and sums
  over the input channels. The kernel never forms that five-axis array. For extended reals a, b the positive part of a
  product splits by the signs of its factors, max (a·b) 0 = max a 0 · max b 0 + min a 0 · min b 0, so per batch entry
  the kernel stacks the positive and the negative parts of the inputs along the channel axis, does the same to the
  weights, and takes ONE matrix product over the doubled axis. At the extended reals the narrowing of the stacked
  operands is the identity and the product is the exact sum, so its entry (o, p) is the sum over k of the two
  products, which the sign law folds into the positive part of x · w; the order of the two factors and of the terms of
  the sum does not matter (multiplication and addition of extended reals commute and associate), and no step divides,
  cancels or distributes, so the argument never uses that the inputs are finite.

  Modules: the sign law; the common result function and the index arithmetic of the reshapes around the kernel; the
  kernel body's stored value at an index; the kernel's program from blocks to its whole result; the reference's stages
  read at an index. Here the five claims are assembled: the two kernel frames are the generated ones, the reference's
  frame is its generated run with the result dropped, no operation was rewritten on the way to the idealized kernel, and
  both runs end at the same function `conv` of arguments that agree.
-/
import proofs.«163120_j57827439673971_2_alg».proof.Defs
import proofs.«163120_j57827439673971_2_alg».proof.Proof.Gen.Kernel
import proofs.«163120_j57827439673971_2_alg».proof.Proof.Gen.Kernel.Skeleton
import proofs.«163120_j57827439673971_2_alg».proof.Proof.Gen.Kernel.Launch
import proofs.«163120_j57827439673971_2_alg».proof.Proof.Gen.Kernel.Points
import proofs.«163120_j57827439673971_2_alg».proof.Proof.Gen.Kernel.Frame
import proofs.«163120_j57827439673971_2_alg».proof.Proof.Gen.KernelIdeal
import proofs.«163120_j57827439673971_2_alg».proof.Proof.Gen.KernelIdeal.Skeleton
import proofs.«163120_j57827439673971_2_alg».proof.Proof.Gen.KernelIdeal.Launch
import proofs.«163120_j57827439673971_2_alg».proof.Proof.Gen.KernelIdeal.Points
import proofs.«163120_j57827439673971_2_alg».proof.Proof.Gen.KernelIdeal.Frame
import proofs.«163120_j57827439673971_2_alg».proof.Proof.Gen.ReferenceIdeal
import proofs.«163120_j57827439673971_2_alg».proof.Proof.Gen.Pre_finite_inputs
import proofs.«163120_j57827439673971_2_alg».proof.Proof.Gen.ReferenceIdeal.Run
import proofs.«163120_j57827439673971_2_alg».proof.Proof.Gen.ReferenceIdeal.Read
import proofs.«163120_j57827439673971_2_alg».proof.Proof.RegionValue
import proofs.«163120_j57827439673971_2_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the extended reals: nothing was rewritten. -/
theorem preserves : Cert.preserves_Kernel_KernelIdeal := trivial

/-- From memories that agree on the arguments both programs end with `conv` of the arguments in their result: the
    kernel's by its run read from blocks to the whole array, the reference's by its stages read at an index. -/
theorem algebraic : Cert.algebraic_KernelIdeal_ReferenceIdeal := by
  intro m ρ m' ρ' _ hagree
  refine ⟨fun c => Cert.Spec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RegionValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.stage_eq_conv, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
